-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S2000x128 : Shape := ⟨2, ![2000, 128]⟩
abbrev S200x10000 : Shape := ⟨2, ![200, 10000]⟩
abbrev S200x128 : Shape := ⟨2, ![200, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | .local _ .vmem, ⟨9, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![105], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c2000_i32 : BitVec 32 := 2000#32
  let v16 : BitVec 32 := Scalar.muli arg0 c2000_i32
  let v17 : Index := Scalar.indexCast v16
  let c0_10 : Index := 0#32
  ![v17.toNat, 0]
def k0_cond2 (i : grid0.Coords) : BitVec 1 :=
  let arg0 : BitVec 32 := BitVec.ofNat 32 (i 0).val
  let c5_i32_0 : BitVec 32 := 5#32
  let v3 : BitVec 1 := Scalar.cmpi .sge arg0 c5_i32_0
  let c55_i32 : BitVec 32 := 55#32
  let v4 : BitVec 1 := Scalar.cmpi .slt arg0 c55_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c5_i32_7 : BitVec 32 := 5#32
  let v14 : BitVec 32 := Scalar.subi arg0 c5_i32_7
  let c200_i32 : BitVec 32 := 200#32
  let v15 : BitVec 32 := Scalar.muli v14 c200_i32
  let v16 : Index := Scalar.indexCast v15
  let c0_8 : Index := 0#32
  ![v16.toNat, 0]
def k0_cond3 (i : grid0.Coords) : BitVec 1 :=
  let arg0 : BitVec 32 := BitVec.ofNat 32 (i 0).val
  let c55_i32_2 : BitVec 32 := 55#32
  let v8 : BitVec 1 := Scalar.cmpi .sge arg0 c55_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c49_i32 : BitVec 32 := 49#32
  let v1 : BitVec 32 := Scalar.maxsi c0_i32 v0
  let v2 : BitVec 32 := Scalar.minsi c49_i32 v1
  let c55_i32 : BitVec 32 := 55#32
  let v3 : BitVec 32 := Scalar.subi arg0 c55_i32
  let c55_i32_0 : BitVec 32 := 55#32
  let v4 : BitVec 1 := Scalar.cmpi .slt arg0 c55_i32_0
  let v5 : BitVec 32 := Scalar.select v4 v2 v3
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let c55_i32 : BitVec 32 := 55#32
  let v0 : BitVec 32 := Scalar.subi arg0 c55_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S128x128_S128x128_S128x128_1_0_0_1_n_n_wf : DotDims.WF S128x128 S128x128 S128x128 [1] [0] [0] [1] [] []
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ (k0_h1 : k0_cond1 i = 1#1), ∀ a, (k0_off1 i) a + S2000x128.size a ≤ S10000x128.size a
  k0_off2_inb : ∀ i : grid0.Coords, ∀ (k0_h2 : k0_cond2 i = 1#1), ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 8
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyRunsBits.lean ====
/-
  The kernel body of `Kernel` at one grid point, phase by phase.

  The grid has 105 points. At points 0–4 the body forms rows of `S = X · (W₁ · W₂)` in the first scratch buffer,
  at points 5–54 rows of `T = A · S` in the second, and at points 55–104 a block of rows of the output `A · T`.
  Each phase is run here on arbitrary whole buffers: which buffers it reads, which rows it overwrites and with what.
-/
import proofs.«164813_g30897994727511_cont_9to1_1020_5_alg».proof.Proof.Gen.Kernel.Frame
import proofs.«164813_g30897994727511_cont_9to1_1020_5_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## Rows of a 10000 × 128 buffer overwritten -/

/-- `X` is `e` with the rows `[o, o + R)` replaced by the `R × 128` block `w`. -/
def RowsSet {R : ℕ} (o : ℕ) (e X : Vec F S10000x128 .f32) (w : Vec F (⟨2, ![R, 128]⟩ : Shape) .f32) : Prop :=
  (∀ (y : S10000x128.Idx) (x : (⟨2, ![R, 128]⟩ : Shape).Idx),
      (y (0 : Fin 2)).val = o + (x (0 : Fin 2)).val → (y (1 : Fin 2)).val = (x (1 : Fin 2)).val → X y = w x)
  ∧ (∀ y : S10000x128.Idx, ((y (0 : Fin 2)).val < o ∨ o + R ≤ (y (0 : Fin 2)).val) → X y = e y)

theorem zeros2 : (![0, 0] : Fin 2 → ℕ) = fun _ => 0 := by
  funext a; match a with | ⟨0, _⟩ => rfl | ⟨1, _⟩ => rfl

/-- Inside the second phase's points the row offset of the stored block is `200 · (i − 5)`. -/
theorem k0_off2_closed : ∀ i : grid0.Coords, k0_cond2 i = 1#1 → k0_off2 i = ![200 * ((i 0).val - 5), 0] := by decide +kernel

/-! ## The body, phase by phase -/

/-- FIRST PHASE (points 0–4): the body multiplies the two weight matrices, multiplies the point's 2000 rows of
    the features by the product, and stores the result into rows `[2000·i, 2000·i + 2000)` of the first scratch
    buffer; every other row of that buffer, and every other buffer, is left as found. -/
theorem runS (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : k0_cond1 i = 1#1) (hc2 : ¬ k0_cond2 i = 1#1) (hc3 : ¬ k0_cond3 i = 1#1)
    (x0 : Vec F S2000x128 .f32) (x1 x2 : Vec F S128x128 .f32) (e0 : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare e0
        ∗ (iprop(owns (c : Thread nD τ) arg1 fullShare x0 ∗ owns (c : Thread nD τ) arg2 fullShare x1 ∗ owns (c : Thread nD τ) arg3 fullShare x2
            ∗ (∃ X, ⌜RowsSet (2000 * (i 0).val) e0 X (k0_pay1 x1 x2 x0)⌝ ∗ owns (c : Thread nD τ) arg6 fullShare X)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg6.eq_unread hfs0
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap
  · iexists _; isplitr
    swap; · iexact HS0
    ipureintro; rfl
  ipureintro
  simp only [View.readAt_eq_ld, harg1.read_unread, harg2.read_unread, harg3.read_unread,
    View.ld_unit_zero (S := S128x128) zeros2, View.ld_unit_zero (S := S2000x128) zeros2]
  refine ⟨fun y x h0 h1 => ?_, fun y h => ?_⟩
  · exact View.read_writes_cons_rows_of_mem arg6.view _ _ _ [] y x (k0_off1_eq i) h0 h1
  · refine (View.read_writes_cons_rows_of_not_mem arg6.view _ _ _ [] y (k0_off1_eq i) rfl h).trans ?_
    rw [View.writes_nil, harg6.read_unread]

/-- SECOND PHASE (points 5–54): the body multiplies the point's 200 rows of the adjacency matrix by the whole first
    scratch buffer and stores the result into rows `[200·(i−5), 200·(i−5) + 200)` of the second scratch buffer. -/
theorem runT (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : ¬ k0_cond1 i = 1#1) (hc2 : k0_cond2 i = 1#1) (hc3 : ¬ k0_cond3 i = 1#1)
    (a : Vec F S200x10000 .f32) (s e1 : Vec F S10000x128 .f32)
    (E : Set ℕ) (K : PUnit → sProp 𝕄) :
    iprop(owns (c : Thread nD τ) arg4 fullShare a ∗ owns (c : Thread nD τ) arg6 fullShare s ∗ owns (c : Thread nD τ) arg7 fullShare e1
        ∗ (iprop(owns (c : Thread nD τ) arg4 fullShare a ∗ owns (c : Thread nD τ) arg6 fullShare s
            ∗ (∃ X, ⌜RowsSet (200 * ((i 0).val - 5)) e1 X (k0_pay2 a s)⌝ ∗ owns (c : Thread nD τ) arg7 fullShare X)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f4, %hf4, H4⟩, ⟨%f6, %hf6, H6⟩, ⟨%f7, %hf7, H7⟩, Hk⟩
  obtain rfl := harg4.eq_unread hf4; obtain rfl := harg6.eq_unread hf6; obtain rfl := harg7.eq_unread hf7
  sl_exec (disch := first | exact hc1 | exact hc2 | exact hc3)
  sl_step
  iapply Hk
  isplitl [H4]
  · iexists _; isplitr; · ipureintro; exact harg4.read_unread _
    iexact H4
  isplitl [H6]
  · iexists _; isplitr; · ipureintro; exact harg6.read_unread _
    iexact H6
  iexists _; isplitr
  swap
  · iexists _; isplitr
    swap; · iexact H7
    ipureintro; rfl
  ipureintro
  simp only [View.readAt_eq_ld, harg4.read_unread, harg6.read_unread,
    View.ld_unit_zero (S := S200x10000) zeros2, View.ld_unit_zero (S := S10000x128) zeros2]
  refine ⟨fun y x h0 h1 => ?_, fun y h => ?_⟩
  · exact View.read_writes_cons_rows_of_mem arg7.view _ _ _ [] y x (k0_off2_closed i hc2) h0 h1
  · refine (View.read_writes_cons_rows_of_not_mem arg7.view _ _ _ [] y (k0_off2_closed i hc2) rfl h).trans ?_
    rw [View.writes_nil, harg7.read_unread]

/-- THIRD PHASE (points 55–104): the body multiplies the point's 200 rows of the adjacency matrix by the whole
    second scratch buffer and stores the result over the output's staging buffer, whatever that held. -/
theorem runO (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : ¬ k0_cond1 i = 1#1) (hc2 : ¬ k0_cond2 i = 1#1) (hc3 : k0_cond3 i = 1#1)
    (a : Vec F S200x10000 .f32) (tt : Vec F S10000x128 .f32)
    (E : Set ℕ) (K : PUnit → sProp 𝕄) :
    iprop(owns (c : Thread nD τ) arg4 fullShare a ∗ owns (c : Thread nD τ) arg7 fullShare tt ∗ (∃ d, owns (c : Thread nD τ) arg5 fullShare d)
        ∗ (iprop(owns (c : Thread nD τ) arg4 fullShare a ∗ owns (c : Thread nD τ) arg7 fullShare tt
            ∗ owns (c : Thread nD τ) arg5 fullShare (k0_pay3 a tt)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f4, %hf4, H4⟩, ⟨%f7, %hf7, H7⟩, ⟨%d5, %f5, -, H5⟩, Hk⟩
  obtain rfl := harg4.eq_unread hf4; obtain rfl := harg7.eq_unread hf7
  sl_exec (disch := first | exact hc1 | exact hc2 | exact hc3)
  sl_step
  iapply Hk
  isplitl [H4]
  · iexists _; isplitr; · ipureintro; exact harg4.read_unread _
    iexact H4
  isplitl [H7]
  · iexists _; isplitr; · ipureintro; exact harg7.read_unread _
    iexact H7
  iexists _; isplitr
  swap; · iexact H5
  ipureintro
  simp only [View.readAt_eq_ld, harg4.read_unread, harg7.read_unread,
    View.ld_unit_zero (S := S200x10000) zeros2, View.ld_unit_zero (S := S10000x128) zeros2]
  funext y
  exact View.read_writes_cons_unit_of_mem arg5.view _ _ _ [] y y rfl
    (Fin.forall_fin_two.mpr ⟨(Nat.zero_add _).symm, (Nat.zero_add _).symm⟩)

end Cert.Kernel.Body

end
-- ==== Proof.BodyDataBits.lean ====
/-
  The run of `Kernel` over its 105 grid points: what the two scratch buffers hold after each point, the
  proof data of the pipeline, the body obligation at every point, and the run of the whole program.

  `S = X · (W₁ · W₂)` is built 2000 rows at a time at points 0–4, `T = A · S` 200 rows at a time at points 5–54,
  and the output `A · T` 200 rows at a time at points 55–104. After point `n − 1` the first scratch buffer holds
  the first `2000 · n` rows of `S` (all of it from `n = 5` on) and the second the first `200 · (n − 5)` rows of `T`
  (all of it from `n = 55` on); the rows not yet written hold whatever the buffers held at the start.
-/
import proofs.«164813_g30897994727511_cont_9to1_1020_5_alg».proof.Proof.BodyRunsBits
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The phases, decided over the grid -/

theorem hcond1 : ∀ t : Fin cfg0.N, k0_cond1 (grid0.coords t) = 1#1 ↔ t.val < 5 :=
  (by decide +kernel : ∀ t : Fin grid0.N, k0_cond1 (grid0.coords t) = 1#1 ↔ t.val < 5)
theorem hcond2 : ∀ t : Fin cfg0.N, k0_cond2 (grid0.coords t) = 1#1 ↔ (5 ≤ t.val ∧ t.val < 55) :=
  (by decide +kernel : ∀ t : Fin grid0.N, k0_cond2 (grid0.coords t) = 1#1 ↔ (5 ≤ t.val ∧ t.val < 55))
theorem hcond3 : ∀ t : Fin cfg0.N, k0_cond3 (grid0.coords t) = 1#1 ↔ 55 ≤ t.val :=
  (by decide +kernel : ∀ t : Fin grid0.N, k0_cond3 (grid0.coords t) = 1#1 ↔ 55 ≤ t.val)
/-- The one grid coordinate of point `t` is `t`. -/
theorem coord0 : ∀ t : Fin cfg0.N, ((grid0.coords t) 0).val = t.val :=
  (by decide +kernel : ∀ t : Fin grid0.N, ((grid0.coords t) 0).val = t.val)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the third phase the body stores nothing into the output's staging buffer, -/
theorem idleAt0_4 : ∀ t : Fin cfg0.N, t.val < 55 → cfg0.idle 4 (grid0.coords t) = true :=
  (by decide +kernel : ∀ t : Fin grid0.N, t.val < 55 → cfg0.idle 4 (grid0.coords t) = true)
/-- and the pipeline does not write it back there; -/
theorem noFlush0_4 : ∀ t : Fin cfg0.N, t.val < 55 → (cfg0.win 4).flush t = false :=
  (by decide +kernel : ∀ t : Fin grid0.N, t.val < 55 → win0_4.flush t = false)
/-- in the third phase it stores the whole block. -/
theorem liveAt0_4 : ∀ t : Fin cfg0.N, 55 ≤ t.val → cfg0.idle 4 (grid0.coords t) = false :=
  (by decide +kernel : ∀ t : Fin grid0.N, 55 ≤ t.val → cfg0.idle 4 (grid0.coords t) = false)

/-! ## The buffers the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x128 .f32 := win0_4.stage (cfg0.slots t 4)
abbrev hs0_4 (t : Fin cfg0.N) : (ms0_4 t).IsWhole := hstage0_4 ((cfg0.slots t 4).cast nbuf0_4)
/-- The two scratch buffers. -/
abbrev scM0_0 : Memref sig .tc .vmem S10000x128 .f32 := Memref.whole cc0_scratch0
abbrev scM0_1 : Memref sig .tc .vmem S10000x128 .f32 := Memref.whole cc0_scratch1

/-- What the launch hands the region besides the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output blocks hold -/

/-- Point `n` of the grid, for a literal bound. -/
def pt (n : ℕ) (h : n < 105) : Fin cfg0.N := ⟨n, lt_of_lt_of_eq h (show (105 : ℕ) = cfg0.N from N_0.symm)⟩

/-- The 2000 rows of `S` that point `t` of the first phase computes from its block of the features and the weights. -/
def Sblk (c : Dev nD) (t : Fin cfg0.N) : Vec F S2000x128 .f32 :=
  k0_pay1 (iblk m c 1 t) (iblk m c 2 t) (iblk m c 0 t)

/-- `S`, row by row: row `r` is row `r % 2000` of what point `r / 2000` computes. -/
def Sfull (c : Dev nD) : Vec F S10000x128 .f32 := fun y =>
  Sblk m c (pt ((y (0 : Fin 2)).val / 2000) (by have := idx2_lt0 y; omega))
    (ix2 (⟨(y (0 : Fin 2)).val % 2000, Nat.mod_lt _ (by decide)⟩ : Fin 2000) (⟨(y (1 : Fin 2)).val, idx2_lt1 y⟩ : Fin 128))

/-- The 200 rows of `T` that point `t` of the second phase computes from its block of the adjacency matrix and `S`. -/
def Tblk (c : Dev nD) (t : Fin cfg0.N) : Vec F S200x128 .f32 :=
  k0_pay2 (iblk m c 3 t) (Sfull m c)

/-- `T`, row by row: row `r` is row `r % 200` of what point `5 + r / 200` computes. -/
def Tfull (c : Dev nD) : Vec F S10000x128 .f32 := fun y =>
  Tblk m c (pt (5 + (y (0 : Fin 2)).val / 200) (by have := idx2_lt0 y; omega))
    (ix2 (⟨(y (0 : Fin 2)).val % 200, Nat.mod_lt _ (by decide)⟩ : Fin 200) (⟨(y (1 : Fin 2)).val, idx2_lt1 y⟩ : Fin 128))

/-- The 200 rows of the output that point `t` of the third phase computes. -/
def Oblk (c : Dev nD) (t : Fin cfg0.N) : Vec F S200x128 .f32 :=
  k0_pay3 (iblk m c 3 t) (Tfull m c)

/-- Before point `n` the scratch buffers `e0`, `e1` agree with `S` and `T` on the rows written so far. -/
def Agree (c : Dev nD) (n : ℕ) (e0 e1 : Vec F S10000x128 .f32) : Prop :=
  (∀ y : S10000x128.Idx, (y (0 : Fin 2)).val < 2000 * n → e0 y = Sfull m c y)
  ∧ (∀ y : S10000x128.Idx, (y (0 : Fin 2)).val + 1000 < 200 * n → e1 y = Tfull m c y)

theorem agree_zero (c : Dev nD) (e0 e1 : Vec F S10000x128 .f32) : Agree m c 0 e0 e1 :=
  ⟨fun y h => absurd h (by omega), fun y h => absurd h (by omega)⟩

/-- A point of the first phase adds its 2000 rows of `S`. -/
theorem agree_S (c : Dev nD) (t : Fin cfg0.N) (ht : t.val < 5) (e0 e1 X : Vec F S10000x128 .f32)
    (h : Agree m c t.val e0 e1) (hX : RowsSet (2000 * t.val) e0 X (Sblk m c t)) : Agree m c (t.val + 1) X e1 := by
  refine ⟨fun y hy => ?_, fun y hy => absurd hy (by omega)⟩
  by_cases hlt : (y (0 : Fin 2)).val < 2000 * t.val
  · exact (hX.2 y (Or.inl hlt)).trans (h.1 y hlt)
  · have hq : (y (0 : Fin 2)).val / 2000 = t.val := by omega
    have hr : (y (0 : Fin 2)).val % 2000 = (y (0 : Fin 2)).val - 2000 * t.val := by omega
    refine (hX.1 y (ix2 (⟨(y (0 : Fin 2)).val % 2000, Nat.mod_lt _ (by decide)⟩ : Fin 2000) (⟨(y (1 : Fin 2)).val, idx2_lt1 y⟩ : Fin 128))
      (by show (y (0 : Fin 2)).val = 2000 * t.val + (y (0 : Fin 2)).val % 2000; omega) rfl).trans ?_
    unfold Sfull
    exact congrArg (fun z => Sblk m c z _) (Fin.ext hq.symm)

/-- From the second phase on the first scratch buffer is all of `S`. -/
theorem agree_S_full (c : Dev nD) (n : ℕ) (hn : 5 ≤ n) (e0 e1 : Vec F S10000x128 .f32) (h : Agree m c n e0 e1) : e0 = Sfull m c :=
  funext fun y => h.1 y (by have := idx2_lt0 y; omega)

/-- A point of the second phase adds its 200 rows of `T`. -/
theorem agree_T (c : Dev nD) (t : Fin cfg0.N) (ht : 5 ≤ t.val) (ht' : t.val < 55) (e1 X : Vec F S10000x128 .f32)
    (h : Agree m c t.val (Sfull m c) e1) (hX : RowsSet (200 * (t.val - 5)) e1 X (Tblk m c t)) : Agree m c (t.val + 1) (Sfull m c) X := by
  refine ⟨fun y hy => rfl, fun y hy => ?_⟩
  by_cases hlt : (y (0 : Fin 2)).val + 1000 < 200 * t.val
  · exact (hX.2 y (Or.inl (by omega))).trans (h.2 y hlt)
  · have hq : 5 + (y (0 : Fin 2)).val / 200 = t.val := by omega
    refine (hX.1 y (ix2 (⟨(y (0 : Fin 2)).val % 200, Nat.mod_lt _ (by decide)⟩ : Fin 200) (⟨(y (1 : Fin 2)).val, idx2_lt1 y⟩ : Fin 128))
      (by show (y (0 : Fin 2)).val = 200 * (t.val - 5) + (y (0 : Fin 2)).val % 200; omega) rfl).trans ?_
    unfold Tfull
    exact congrArg (fun z => Tblk m c z _) (Fin.ext hq.symm)

/-- From the third phase on the second scratch buffer is all of `T`. -/
theorem agree_T_full (c : Dev nD) (n : ℕ) (hn : 55 ≤ n) (e0 e1 : Vec F S10000x128 .f32) (h : Agree m c n e0 e1) : e1 = Tfull m c :=
  funext fun y => h.2 y (by have := idx2_lt0 y; omega)

/-- Nothing written is lost by going on. -/
theorem agree_full (c : Dev nD) (n : ℕ) : Agree m c n (Sfull m c) (Tfull m c) := ⟨fun _ _ => rfl, fun _ _ => rfl⟩

/-- The region invariant before point `n`: the scratch buffers at contents that agree with `S` and `T` on the rows
    written so far, and the generator register at some state. -/
def PhiS (c : Dev nD) (n : ℕ) : sProp 𝕄 :=
  iprop(∃ e0 e1, ⌜Agree m c n e0 e1⌝ ∗ owns (c : Thread nD τ) scM0_0 fullShare e0 ∗ owns (c : Thread nD τ) scM0_1 fullShare e1 ∗ (∃ r, prngReg c r))

/-! ## The pipeline's proof data -/

/-- The arrays as the region finds them; after the body each input's buffer at its block and the output's at the
    point's 200 rows of the result; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Oblk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Body

end
-- ==== Proof.BodySoundBits.lean ====
/-
  The body obligation of `Kernel` at every grid point, and the run of the whole program over the grid.
  Each point is in exactly one of the three phases; the phase's run of the body takes the scratch buffers from the
  invariant before the point and gives them back as the invariant after it.
-/
import proofs.«164813_g30897994727511_cont_9to1_1020_5_alg».proof.Proof.BodyDataBits

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's phase is read off its number; the
    phase's run applies; the invariant hands the body the scratch buffers and takes them back with the point's
    rows added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 105 := lt_of_lt_of_eq t.isLt (show cfg0.N = 105 from N_0)
  unfold PhiS
  by_cases h1 : t.val < 5
  · have hc1 := (hcond1 t).mpr h1
    have hc2 : ¬ k0_cond2 (grid0.coords t) = 1#1 := fun h => by have := (hcond2 t).mp h; omega
    have hc3 : ¬ k0_cond3 (grid0.coords t) = 1#1 := fun h => by have := (hcond3 t).mp h; omega
    rw [Dat.leavesExact_idle (dats m 0 c) 4 t (idleAt0_4 t (by omega)) (noFlush0_4 t (by omega))]
    iintro ⟨⟨%e0, %e1, %hag, HS0, HS1, Hg⟩, Ho, ⟨%d0, H0⟩, ⟨%d1, H1⟩, ⟨%d2, H2⟩, ⟨%d3, H3⟩, H4⟩
    iapply (runS c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) hc1 hc2 hc3 (iblk m c 0 t) (iblk m c 1 t) (iblk m c 2 t) e0 Set.univ _)
    isplitl [H0]; · iexact H0
    isplitl [H1]; · iexact H1
    isplitl [H2]; · iexact H2
    isplitl [HS0]; · iexact HS0
    iintro ⟨H0, H1, H2, ⟨%X, %hX, HS0⟩⟩
    isplitl [HS0 HS1 Hg]
    · iexists X; iexists e1; isplitr
      · ipureintro; rw [coord0 t] at hX; exact agree_S m c t h1 e0 e1 X hag hX
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    iexact H4
  · by_cases h2 : t.val < 55
    · have hc1 : ¬ k0_cond1 (grid0.coords t) = 1#1 := fun h => h1 ((hcond1 t).mp h)
      have hc2 := (hcond2 t).mpr ⟨by omega, h2⟩
      have hc3 : ¬ k0_cond3 (grid0.coords t) = 1#1 := fun h => by have := (hcond3 t).mp h; omega
      rw [Dat.leavesExact_idle (dats m 0 c) 4 t (idleAt0_4 t h2) (noFlush0_4 t h2)]
      iintro ⟨⟨%e0, %e1, %hag, HS0, HS1, Hg⟩, Ho, ⟨%d0, H0⟩, ⟨%d1, H1⟩, ⟨%d2, H2⟩, ⟨%d3, H3⟩, H4⟩
      obtain rfl := agree_S_full m c t.val (by omega) e0 e1 hag
      iapply (runT c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc1 hc2 hc3 (iblk m c 3 t) (Sfull m c) e1 Set.univ _)
      isplitl [H3]; · iexact H3
      isplitl [HS0]; · iexact HS0
      isplitl [HS1]; · iexact HS1
      iintro ⟨H3, HS0, ⟨%X, %hX, HS1⟩⟩
      isplitl [HS0 HS1 Hg]
      · iexists (Sfull m c); iexists X; isplitr
        · ipureintro; rw [coord0 t] at hX; exact agree_T m c t (by omega) h2 e1 X hag hX
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · have hc1 : ¬ k0_cond1 (grid0.coords t) = 1#1 := fun h => h1 ((hcond1 t).mp h)
      have hc2 : ¬ k0_cond2 (grid0.coords t) = 1#1 := fun h => by have := (hcond2 t).mp h; omega
      have hc3 := (hcond3 t).mpr (by omega)
      rw [show (dats m 0 c).leavesExact 4 t = owns (c : Thread nD τ) (ms0_4 t) fullShare ((dats m 0 c).after 4 t) from by
        unfold Dat.leavesExact; rw [liveAt0_4 t (by omega)], after0_4]
      iintro ⟨⟨%e0, %e1, %hag, HS0, HS1, Hg⟩, Ho, ⟨%d0, H0⟩, ⟨%d1, H1⟩, ⟨%d2, H2⟩, ⟨%d3, H3⟩, ⟨%d4, H4⟩⟩
      obtain rfl := agree_S_full m c t.val (by omega) e0 e1 hag
      obtain rfl := agree_T_full m c t.val (by omega) (Sfull m c) e1 hag
      iapply (runO c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc1 hc2 hc3 (iblk m c 3 t) (Tfull m c) Set.univ _)
      isplitl [H3]; · iexact H3
      isplitl [HS1]; · iexact HS1
      isplitl [H4]; · iexists _; iexact H4
      iintro ⟨H3, HS1, H4⟩
      isplitl [HS0 HS1 Hg]
      · iexists (Sfull m c); iexists (Tfull m c); isplitr
        · ipureintro; exact agree_full m c _
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing has been written. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%e0, HS0⟩, ⟨%e1, HS1⟩⟩, Hg⟩
  iexists e0; iexists e1; isplitr
  · ipureintro; exact agree_zero m c e0 e1
  isplitl [HS0]; · iexact HS0
  isplitl [HS1]; · iexact HS1
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%e0, %e1, -, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the pipeline at
    what the write-backs of the proof data leave and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyRunsIdeal.lean ====
/-
  The kernel body of `KernelIdeal` at one grid point, phase by phase.

  The grid has 105 points. At points 0–4 the body forms rows of `S = X · (W₁ · W₂)` in the first scratch buffer,
  at points 5–54 rows of `T = A · S` in the second, and at points 55–104 a block of rows of the output `A · T`.
  Each phase is run here on arbitrary whole buffers: which buffers it reads, which rows it overwrites and with what.
-/
import proofs.«164813_g30897994727511_cont_9to1_1020_5_alg».proof.Proof.Gen.KernelIdeal.Frame
import proofs.«164813_g30897994727511_cont_9to1_1020_5_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-! ## Rows of a 10000 × 128 buffer overwritten -/

/-- `X` is `e` with the rows `[o, o + R)` replaced by the `R × 128` block `w`. -/
def RowsSet {R : ℕ} (o : ℕ) (e X : Vec F S10000x128 .f32) (w : Vec F (⟨2, ![R, 128]⟩ : Shape) .f32) : Prop :=
  (∀ (y : S10000x128.Idx) (x : (⟨2, ![R, 128]⟩ : Shape).Idx),
      (y (0 : Fin 2)).val = o + (x (0 : Fin 2)).val → (y (1 : Fin 2)).val = (x (1 : Fin 2)).val → X y = w x)
  ∧ (∀ y : S10000x128.Idx, ((y (0 : Fin 2)).val < o ∨ o + R ≤ (y (0 : Fin 2)).val) → X y = e y)

theorem zeros2 : (![0, 0] : Fin 2 → ℕ) = fun _ => 0 := by
  funext a; match a with | ⟨0, _⟩ => rfl | ⟨1, _⟩ => rfl

/-- Inside the second phase's points the row offset of the stored block is `200 · (i − 5)`. -/
theorem k0_off2_closed : ∀ i : grid0.Coords, k0_cond2 i = 1#1 → k0_off2 i = ![200 * ((i 0).val - 5), 0] := by decide +kernel

/-! ## The body, phase by phase -/

/-- FIRST PHASE (points 0–4): the body multiplies the two weight matrices, multiplies the point's 2000 rows of
    the features by the product, and stores the result into rows `[2000·i, 2000·i + 2000)` of the first scratch
    buffer; every other row of that buffer, and every other buffer, is left as found. -/
theorem runS (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : k0_cond1 i = 1#1) (hc2 : ¬ k0_cond2 i = 1#1) (hc3 : ¬ k0_cond3 i = 1#1)
    (x0 : Vec F S2000x128 .f32) (x1 x2 : Vec F S128x128 .f32) (e0 : Vec F S10000x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg6 fullShare e0
        ∗ (iprop(owns (c : Thread nD τ) arg1 fullShare x0 ∗ owns (c : Thread nD τ) arg2 fullShare x1 ∗ owns (c : Thread nD τ) arg3 fullShare x2
            ∗ (∃ X, ⌜RowsSet (2000 * (i 0).val) e0 X (k0_pay1 x1 x2 x0)⌝ ∗ owns (c : Thread nD τ) arg6 fullShare X)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg6.eq_unread hfs0
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap
  · iexists _; isplitr
    swap; · iexact HS0
    ipureintro; rfl
  ipureintro
  simp only [View.readAt_eq_ld, harg1.read_unread, harg2.read_unread, harg3.read_unread,
    View.ld_unit_zero (S := S128x128) zeros2, View.ld_unit_zero (S := S2000x128) zeros2]
  refine ⟨fun y x h0 h1 => ?_, fun y h => ?_⟩
  · exact View.read_writes_cons_rows_of_mem arg6.view _ _ _ [] y x (k0_off1_eq i) h0 h1
  · refine (View.read_writes_cons_rows_of_not_mem arg6.view _ _ _ [] y (k0_off1_eq i) rfl h).trans ?_
    rw [View.writes_nil, harg6.read_unread]

/-- SECOND PHASE (points 5–54): the body multiplies the point's 200 rows of the adjacency matrix by the whole first
    scratch buffer and stores the result into rows `[200·(i−5), 200·(i−5) + 200)` of the second scratch buffer. -/
theorem runT (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : ¬ k0_cond1 i = 1#1) (hc2 : k0_cond2 i = 1#1) (hc3 : ¬ k0_cond3 i = 1#1)
    (a : Vec F S200x10000 .f32) (s e1 : Vec F S10000x128 .f32)
    (E : Set ℕ) (K : PUnit → sProp 𝕄) :
    iprop(owns (c : Thread nD τ) arg4 fullShare a ∗ owns (c : Thread nD τ) arg6 fullShare s ∗ owns (c : Thread nD τ) arg7 fullShare e1
        ∗ (iprop(owns (c : Thread nD τ) arg4 fullShare a ∗ owns (c : Thread nD τ) arg6 fullShare s
            ∗ (∃ X, ⌜RowsSet (200 * ((i 0).val - 5)) e1 X (k0_pay2 a s)⌝ ∗ owns (c : Thread nD τ) arg7 fullShare X)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f4, %hf4, H4⟩, ⟨%f6, %hf6, H6⟩, ⟨%f7, %hf7, H7⟩, Hk⟩
  obtain rfl := harg4.eq_unread hf4; obtain rfl := harg6.eq_unread hf6; obtain rfl := harg7.eq_unread hf7
  sl_exec (disch := first | exact hc1 | exact hc2 | exact hc3)
  sl_step
  iapply Hk
  isplitl [H4]
  · iexists _; isplitr; · ipureintro; exact harg4.read_unread _
    iexact H4
  isplitl [H6]
  · iexists _; isplitr; · ipureintro; exact harg6.read_unread _
    iexact H6
  iexists _; isplitr
  swap
  · iexists _; isplitr
    swap; · iexact H7
    ipureintro; rfl
  ipureintro
  simp only [View.readAt_eq_ld, harg4.read_unread, harg6.read_unread,
    View.ld_unit_zero (S := S200x10000) zeros2, View.ld_unit_zero (S := S10000x128) zeros2]
  refine ⟨fun y x h0 h1 => ?_, fun y h => ?_⟩
  · exact View.read_writes_cons_rows_of_mem arg7.view _ _ _ [] y x (k0_off2_closed i hc2) h0 h1
  · refine (View.read_writes_cons_rows_of_not_mem arg7.view _ _ _ [] y (k0_off2_closed i hc2) rfl h).trans ?_
    rw [View.writes_nil, harg7.read_unread]

/-- THIRD PHASE (points 55–104): the body multiplies the point's 200 rows of the adjacency matrix by the whole
    second scratch buffer and stores the result over the output's staging buffer, whatever that held. -/
theorem runO (c : Dev nD) (i : grid0.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S10000x128 .f32) (harg6 : arg6.IsWhole)
    (arg7 : Memref sig .tc .vmem S10000x128 .f32) (harg7 : arg7.IsWhole)
    (hc1 : ¬ k0_cond1 i = 1#1) (hc2 : ¬ k0_cond2 i = 1#1) (hc3 : k0_cond3 i = 1#1)
    (a : Vec F S200x10000 .f32) (tt : Vec F S10000x128 .f32)
    (E : Set ℕ) (K : PUnit → sProp 𝕄) :
    iprop(owns (c : Thread nD τ) arg4 fullShare a ∗ owns (c : Thread nD τ) arg7 fullShare tt ∗ (∃ d, owns (c : Thread nD τ) arg5 fullShare d)
        ∗ (iprop(owns (c : Thread nD τ) arg4 fullShare a ∗ owns (c : Thread nD τ) arg7 fullShare tt
            ∗ owns (c : Thread nD τ) arg5 fullShare (k0_pay3 a tt)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f4, %hf4, H4⟩, ⟨%f7, %hf7, H7⟩, ⟨%d5, %f5, -, H5⟩, Hk⟩
  obtain rfl := harg4.eq_unread hf4; obtain rfl := harg7.eq_unread hf7
  sl_exec (disch := first | exact hc1 | exact hc2 | exact hc3)
  sl_step
  iapply Hk
  isplitl [H4]
  · iexists _; isplitr; · ipureintro; exact harg4.read_unread _
    iexact H4
  isplitl [H7]
  · iexists _; isplitr; · ipureintro; exact harg7.read_unread _
    iexact H7
  iexists _; isplitr
  swap; · iexact H5
  ipureintro
  simp only [View.readAt_eq_ld, harg4.read_unread, harg7.read_unread,
    View.ld_unit_zero (S := S200x10000) zeros2, View.ld_unit_zero (S := S10000x128) zeros2]
  funext y
  exact View.read_writes_cons_unit_of_mem arg5.view _ _ _ [] y y rfl
    (Fin.forall_fin_two.mpr ⟨(Nat.zero_add _).symm, (Nat.zero_add _).symm⟩)

end Cert.KernelIdeal.Body

end
-- ==== Proof.BodyDataIdeal.lean ====
/-
  The run of `KernelIdeal` over its 105 grid points: what the two scratch buffers hold after each point, the
  proof data of the pipeline, the body obligation at every point, and the run of the whole program.

  `S = X · (W₁ · W₂)` is built 2000 rows at a time at points 0–4, `T = A · S` 200 rows at a time at points 5–54,
  and the output `A · T` 200 rows at a time at points 55–104. After point `n − 1` the first scratch buffer holds
  the first `2000 · n` rows of `S` (all of it from `n = 5` on) and the second the first `200 · (n − 5)` rows of `T`
  (all of it from `n = 55` on); the rows not yet written hold whatever the buffers held at the start.
-/
import proofs.«164813_g30897994727511_cont_9to1_1020_5_alg».proof.Proof.BodyRunsIdeal
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The phases, decided over the grid -/

theorem hcond1 : ∀ t : Fin cfg0.N, k0_cond1 (grid0.coords t) = 1#1 ↔ t.val < 5 :=
  (by decide +kernel : ∀ t : Fin grid0.N, k0_cond1 (grid0.coords t) = 1#1 ↔ t.val < 5)
theorem hcond2 : ∀ t : Fin cfg0.N, k0_cond2 (grid0.coords t) = 1#1 ↔ (5 ≤ t.val ∧ t.val < 55) :=
  (by decide +kernel : ∀ t : Fin grid0.N, k0_cond2 (grid0.coords t) = 1#1 ↔ (5 ≤ t.val ∧ t.val < 55))
theorem hcond3 : ∀ t : Fin cfg0.N, k0_cond3 (grid0.coords t) = 1#1 ↔ 55 ≤ t.val :=
  (by decide +kernel : ∀ t : Fin grid0.N, k0_cond3 (grid0.coords t) = 1#1 ↔ 55 ≤ t.val)
/-- The one grid coordinate of point `t` is `t`. -/
theorem coord0 : ∀ t : Fin cfg0.N, ((grid0.coords t) 0).val = t.val :=
  (by decide +kernel : ∀ t : Fin grid0.N, ((grid0.coords t) 0).val = t.val)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the third phase the body stores nothing into the output's staging buffer, -/
theorem idleAt0_4 : ∀ t : Fin cfg0.N, t.val < 55 → cfg0.idle 4 (grid0.coords t) = true :=
  (by decide +kernel : ∀ t : Fin grid0.N, t.val < 55 → cfg0.idle 4 (grid0.coords t) = true)
/-- and the pipeline does not write it back there; -/
theorem noFlush0_4 : ∀ t : Fin cfg0.N, t.val < 55 → (cfg0.win 4).flush t = false :=
  (by decide +kernel : ∀ t : Fin grid0.N, t.val < 55 → win0_4.flush t = false)
/-- in the third phase it stores the whole block. -/
theorem liveAt0_4 : ∀ t : Fin cfg0.N, 55 ≤ t.val → cfg0.idle 4 (grid0.coords t) = false :=
  (by decide +kernel : ∀ t : Fin grid0.N, 55 ≤ t.val → cfg0.idle 4 (grid0.coords t) = false)

/-! ## The buffers the body is called with -/

abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x128 .f32 := win0_4.stage (cfg0.slots t 4)
abbrev hs0_4 (t : Fin cfg0.N) : (ms0_4 t).IsWhole := hstage0_4 ((cfg0.slots t 4).cast nbuf0_4)
/-- The two scratch buffers. -/
abbrev scM0_0 : Memref sig .tc .vmem S10000x128 .f32 := Memref.whole cc0_scratch0
abbrev scM0_1 : Memref sig .tc .vmem S10000x128 .f32 := Memref.whole cc0_scratch1

/-- What the launch hands the region besides the windows: the two scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch buffers and the output blocks hold -/

/-- Point `n` of the grid, for a literal bound. -/
def pt (n : ℕ) (h : n < 105) : Fin cfg0.N := ⟨n, lt_of_lt_of_eq h (show (105 : ℕ) = cfg0.N from N_0.symm)⟩

/-- The 2000 rows of `S` that point `t` of the first phase computes from its block of the features and the weights. -/
def Sblk (c : Dev nD) (t : Fin cfg0.N) : Vec F S2000x128 .f32 :=
  k0_pay1 (iblk m c 1 t) (iblk m c 2 t) (iblk m c 0 t)

/-- `S`, row by row: row `r` is row `r % 2000` of what point `r / 2000` computes. -/
def Sfull (c : Dev nD) : Vec F S10000x128 .f32 := fun y =>
  Sblk m c (pt ((y (0 : Fin 2)).val / 2000) (by have := idx2_lt0 y; omega))
    (ix2 (⟨(y (0 : Fin 2)).val % 2000, Nat.mod_lt _ (by decide)⟩ : Fin 2000) (⟨(y (1 : Fin 2)).val, idx2_lt1 y⟩ : Fin 128))

/-- The 200 rows of `T` that point `t` of the second phase computes from its block of the adjacency matrix and `S`. -/
def Tblk (c : Dev nD) (t : Fin cfg0.N) : Vec F S200x128 .f32 :=
  k0_pay2 (iblk m c 3 t) (Sfull m c)

/-- `T`, row by row: row `r` is row `r % 200` of what point `5 + r / 200` computes. -/
def Tfull (c : Dev nD) : Vec F S10000x128 .f32 := fun y =>
  Tblk m c (pt (5 + (y (0 : Fin 2)).val / 200) (by have := idx2_lt0 y; omega))
    (ix2 (⟨(y (0 : Fin 2)).val % 200, Nat.mod_lt _ (by decide)⟩ : Fin 200) (⟨(y (1 : Fin 2)).val, idx2_lt1 y⟩ : Fin 128))

/-- The 200 rows of the output that point `t` of the third phase computes. -/
def Oblk (c : Dev nD) (t : Fin cfg0.N) : Vec F S200x128 .f32 :=
  k0_pay3 (iblk m c 3 t) (Tfull m c)

/-- Before point `n` the scratch buffers `e0`, `e1` agree with `S` and `T` on the rows written so far. -/
def Agree (c : Dev nD) (n : ℕ) (e0 e1 : Vec F S10000x128 .f32) : Prop :=
  (∀ y : S10000x128.Idx, (y (0 : Fin 2)).val < 2000 * n → e0 y = Sfull m c y)
  ∧ (∀ y : S10000x128.Idx, (y (0 : Fin 2)).val + 1000 < 200 * n → e1 y = Tfull m c y)

theorem agree_zero (c : Dev nD) (e0 e1 : Vec F S10000x128 .f32) : Agree m c 0 e0 e1 :=
  ⟨fun y h => absurd h (by omega), fun y h => absurd h (by omega)⟩

/-- A point of the first phase adds its 2000 rows of `S`. -/
theorem agree_S (c : Dev nD) (t : Fin cfg0.N) (ht : t.val < 5) (e0 e1 X : Vec F S10000x128 .f32)
    (h : Agree m c t.val e0 e1) (hX : RowsSet (2000 * t.val) e0 X (Sblk m c t)) : Agree m c (t.val + 1) X e1 := by
  refine ⟨fun y hy => ?_, fun y hy => absurd hy (by omega)⟩
  by_cases hlt : (y (0 : Fin 2)).val < 2000 * t.val
  · exact (hX.2 y (Or.inl hlt)).trans (h.1 y hlt)
  · have hq : (y (0 : Fin 2)).val / 2000 = t.val := by omega
    have hr : (y (0 : Fin 2)).val % 2000 = (y (0 : Fin 2)).val - 2000 * t.val := by omega
    refine (hX.1 y (ix2 (⟨(y (0 : Fin 2)).val % 2000, Nat.mod_lt _ (by decide)⟩ : Fin 2000) (⟨(y (1 : Fin 2)).val, idx2_lt1 y⟩ : Fin 128))
      (by show (y (0 : Fin 2)).val = 2000 * t.val + (y (0 : Fin 2)).val % 2000; omega) rfl).trans ?_
    unfold Sfull
    exact congrArg (fun z => Sblk m c z _) (Fin.ext hq.symm)

/-- From the second phase on the first scratch buffer is all of `S`. -/
theorem agree_S_full (c : Dev nD) (n : ℕ) (hn : 5 ≤ n) (e0 e1 : Vec F S10000x128 .f32) (h : Agree m c n e0 e1) : e0 = Sfull m c :=
  funext fun y => h.1 y (by have := idx2_lt0 y; omega)

/-- A point of the second phase adds its 200 rows of `T`. -/
theorem agree_T (c : Dev nD) (t : Fin cfg0.N) (ht : 5 ≤ t.val) (ht' : t.val < 55) (e1 X : Vec F S10000x128 .f32)
    (h : Agree m c t.val (Sfull m c) e1) (hX : RowsSet (200 * (t.val - 5)) e1 X (Tblk m c t)) : Agree m c (t.val + 1) (Sfull m c) X := by
  refine ⟨fun y hy => rfl, fun y hy => ?_⟩
  by_cases hlt : (y (0 : Fin 2)).val + 1000 < 200 * t.val
  · exact (hX.2 y (Or.inl (by omega))).trans (h.2 y hlt)
  · have hq : 5 + (y (0 : Fin 2)).val / 200 = t.val := by omega
    refine (hX.1 y (ix2 (⟨(y (0 : Fin 2)).val % 200, Nat.mod_lt _ (by decide)⟩ : Fin 200) (⟨(y (1 : Fin 2)).val, idx2_lt1 y⟩ : Fin 128))
      (by show (y (0 : Fin 2)).val = 200 * (t.val - 5) + (y (0 : Fin 2)).val % 200; omega) rfl).trans ?_
    unfold Tfull
    exact congrArg (fun z => Tblk m c z _) (Fin.ext hq.symm)

/-- From the third phase on the second scratch buffer is all of `T`. -/
theorem agree_T_full (c : Dev nD) (n : ℕ) (hn : 55 ≤ n) (e0 e1 : Vec F S10000x128 .f32) (h : Agree m c n e0 e1) : e1 = Tfull m c :=
  funext fun y => h.2 y (by have := idx2_lt0 y; omega)

/-- Nothing written is lost by going on. -/
theorem agree_full (c : Dev nD) (n : ℕ) : Agree m c n (Sfull m c) (Tfull m c) := ⟨fun _ _ => rfl, fun _ _ => rfl⟩

/-- The region invariant before point `n`: the scratch buffers at contents that agree with `S` and `T` on the rows
    written so far, and the generator register at some state. -/
def PhiS (c : Dev nD) (n : ℕ) : sProp 𝕄 :=
  iprop(∃ e0 e1, ⌜Agree m c n e0 e1⌝ ∗ owns (c : Thread nD τ) scM0_0 fullShare e0 ∗ owns (c : Thread nD τ) scM0_1 fullShare e1 ∗ (∃ r, prngReg c r))

/-! ## The pipeline's proof data -/

/-- The arrays as the region finds them; after the body each input's buffer at its block and the output's at the
    point's 200 rows of the result; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Oblk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = Oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Body

end
-- ==== Proof.BodySoundIdeal.lean ====
/-
  The body obligation of `KernelIdeal` at every grid point, and the run of the whole program over the grid.
  Each point is in exactly one of the three phases; the phase's run of the body takes the scratch buffers from the
  invariant before the point and gives them back as the invariant after it.
-/
import proofs.«164813_g30897994727511_cont_9to1_1020_5_alg».proof.Proof.BodyDataIdeal

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's phase is read off its number; the
    phase's run applies; the invariant hands the body the scratch buffers and takes them back with the point's
    rows added. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 105 := lt_of_lt_of_eq t.isLt (show cfg0.N = 105 from N_0)
  unfold PhiS
  by_cases h1 : t.val < 5
  · have hc1 := (hcond1 t).mpr h1
    have hc2 : ¬ k0_cond2 (grid0.coords t) = 1#1 := fun h => by have := (hcond2 t).mp h; omega
    have hc3 : ¬ k0_cond3 (grid0.coords t) = 1#1 := fun h => by have := (hcond3 t).mp h; omega
    rw [Dat.leavesExact_idle (dats m 0 c) 4 t (idleAt0_4 t (by omega)) (noFlush0_4 t (by omega))]
    iintro ⟨⟨%e0, %e1, %hag, HS0, HS1, Hg⟩, Ho, ⟨%d0, H0⟩, ⟨%d1, H1⟩, ⟨%d2, H2⟩, ⟨%d3, H3⟩, H4⟩
    iapply (runS c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) hc1 hc2 hc3 (iblk m c 0 t) (iblk m c 1 t) (iblk m c 2 t) e0 Set.univ _)
    isplitl [H0]; · iexact H0
    isplitl [H1]; · iexact H1
    isplitl [H2]; · iexact H2
    isplitl [HS0]; · iexact HS0
    iintro ⟨H0, H1, H2, ⟨%X, %hX, HS0⟩⟩
    isplitl [HS0 HS1 Hg]
    · iexists X; iexists e1; isplitr
      · ipureintro; rw [coord0 t] at hX; exact agree_S m c t h1 e0 e1 X hag hX
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    iexact H4
  · by_cases h2 : t.val < 55
    · have hc1 : ¬ k0_cond1 (grid0.coords t) = 1#1 := fun h => h1 ((hcond1 t).mp h)
      have hc2 := (hcond2 t).mpr ⟨by omega, h2⟩
      have hc3 : ¬ k0_cond3 (grid0.coords t) = 1#1 := fun h => by have := (hcond3 t).mp h; omega
      rw [Dat.leavesExact_idle (dats m 0 c) 4 t (idleAt0_4 t h2) (noFlush0_4 t h2)]
      iintro ⟨⟨%e0, %e1, %hag, HS0, HS1, Hg⟩, Ho, ⟨%d0, H0⟩, ⟨%d1, H1⟩, ⟨%d2, H2⟩, ⟨%d3, H3⟩, H4⟩
      obtain rfl := agree_S_full m c t.val (by omega) e0 e1 hag
      iapply (runT c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc1 hc2 hc3 (iblk m c 3 t) (Sfull m c) e1 Set.univ _)
      isplitl [H3]; · iexact H3
      isplitl [HS0]; · iexact HS0
      isplitl [HS1]; · iexact HS1
      iintro ⟨H3, HS0, ⟨%X, %hX, HS1⟩⟩
      isplitl [HS0 HS1 Hg]
      · iexists (Sfull m c); iexists X; isplitr
        · ipureintro; rw [coord0 t] at hX; exact agree_T m c t (by omega) h2 e1 X hag hX
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4
    · have hc1 : ¬ k0_cond1 (grid0.coords t) = 1#1 := fun h => h1 ((hcond1 t).mp h)
      have hc2 : ¬ k0_cond2 (grid0.coords t) = 1#1 := fun h => by have := (hcond2 t).mp h; omega
      have hc3 := (hcond3 t).mpr (by omega)
      rw [show (dats m 0 c).leavesExact 4 t = owns (c : Thread nD τ) (ms0_4 t) fullShare ((dats m 0 c).after 4 t) from by
        unfold Dat.leavesExact; rw [liveAt0_4 t (by omega)], after0_4]
      iintro ⟨⟨%e0, %e1, %hag, HS0, HS1, Hg⟩, Ho, ⟨%d0, H0⟩, ⟨%d1, H1⟩, ⟨%d2, H2⟩, ⟨%d3, H3⟩, ⟨%d4, H4⟩⟩
      obtain rfl := agree_S_full m c t.val (by omega) e0 e1 hag
      obtain rfl := agree_T_full m c t.val (by omega) (Sfull m c) e1 hag
      iapply (runO c (grid0.coords t) (ms0_0 t) (hs0_0 t) (ms0_1 t) (hs0_1 t) (ms0_2 t) (hs0_2 t) (ms0_3 t) (hs0_3 t) (ms0_4 t) (hs0_4 t)
        scM0_0 (Memref.isWhole_whole _) scM0_1 (Memref.isWhole_whole _) hc1 hc2 hc3 (iblk m c 3 t) (Tfull m c) Set.univ _)
      isplitl [H3]; · iexact H3
      isplitl [HS1]; · iexact HS1
      isplitl [H4]; · iexists _; iexact H4
      iintro ⟨H3, HS1, H4⟩
      isplitl [HS0 HS1 Hg]
      · iexists (Sfull m c); iexists (Tfull m c); isplitr
        · ipureintro; exact agree_full m c _
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing has been written. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%e0, HS0⟩, ⟨%e1, HS1⟩⟩, Hg⟩
  iexists e0; iexists e1; isplitr
  · ipureintro; exact agree_zero m c e0 e1
  isplitl [HS0]; · iexact HS0
  isplitl [HS1]; · iexact HS1
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%e0, %e1, -, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates, and every final state has every array of the pipeline at
    what the write-backs of the proof data leave and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.BodyPayloads.lean ====
/-
  The three payloads of the kernel body, read at an entry over the extended reals.

  Each payload is one or two matrix products into a zero accumulator, followed (in the first two) by a
  reshape to the same shape, which changes nothing. The first is `X_blk · (W₁ · W₂)` for a block of 2000 rows
  of the features; the second and third are `A_blk · S` for a block of 200 rows of the adjacency matrix and a
  full 10000 × 128 matrix `S`. At row `p` and column `q` each product is the sum over the contracted
  coordinate of the products of the operands' entries.
-/
import proofs.«164813_g30897994727511_cont_9to1_1020_5_alg».proof.Proof.Gen.KernelIdeal.Skeleton
import proofs.«164813_g30897994727511_cont_9to1_1020_5_alg».proof.Proof.LibPlainProduct
import Idealize.ShloMosaic.Lib.Pipeline.Value

noncomputable section

open scoped BigOperators

namespace Cert.KernelIdeal.Payloads

open Cert.KernelIdeal Cert.KernelIdeal.Gen
open Idealize.ShloMosaic Idealize.ShloMosaic.ValueIdx

/-- The first payload: `X_blk · (W₁ · W₂)` at entry `(p, q)`. -/
theorem pay1_apply (w1 w2 : Vec Ideal S128x128 .f32) (x : Vec Ideal S2000x128 .f32) (p : Fin 2000) (q : Fin 128) :
    k0_pay1 (F := Ideal) w1 w2 x (ix2 p q)
      = ∑ a : Fin 128, x (ix2 p a) * (∑ b : Fin 128, w1 (ix2 a b) * w2 (ix2 b q)) := by
  unfold k0_pay1
  rw [shapeCast_self, PlainProduct.matmul_zero_apply dot_S2000x128_S128x128_S2000x128_1_0_0_1_n_n rfl]
  refine Finset.sum_congr rfl fun a _ => ?_
  rw [PlainProduct.matmul_zero_apply dot_S128x128_S128x128_S128x128_1_0_0_1_n_n rfl]

/-- The second payload: `A_blk · S` at entry `(p, q)`. -/
theorem pay2_apply (a : Vec Ideal S200x10000 .f32) (s : Vec Ideal S10000x128 .f32) (p : Fin 200) (q : Fin 128) :
    k0_pay2 (F := Ideal) a s (ix2 p q) = ∑ k : Fin 10000, a (ix2 p k) * s (ix2 k q) := by
  unfold k0_pay2
  rw [shapeCast_self, PlainProduct.matmul_zero_apply dot_S200x10000_S10000x128_S200x128_1_0_0_1_n_n rfl]

/-- The third payload: `A_blk · T` at entry `(p, q)`. -/
theorem pay3_apply (a : Vec Ideal S200x10000 .f32) (s : Vec Ideal S10000x128 .f32) (p : Fin 200) (q : Fin 128) :
    k0_pay3 (F := Ideal) a s (ix2 p q) = ∑ k : Fin 10000, a (ix2 p k) * s (ix2 k q) := by
  unfold k0_pay3
  rw [PlainProduct.matmul_zero_apply dot_S200x10000_S10000x128_S200x128_1_0_0_1_n_n rfl]

end Cert.KernelIdeal.Payloads

end
-- ==== Proof.GraphSpec.lean ====
/-
  The mathematics of the two programs, with no program in sight.

  A graph auto-encoder with two linear layers sends node features `X` (10000 × 128) through
  `A · ((A · (X · W₁)) · W₂)`, where `A` is the 10000 × 10000 adjacency matrix and `W₁`, `W₂` are 128 × 128
  weights. Because every stage is linear the same matrix is `A · (A · (X · (W₁ · W₂)))`: the two weight
  products fold into one 128 × 128 matrix before the adjacency matrix is touched. Both readings are written
  here entry by entry over the extended reals, as nested finite sums of products.
-/
import Idealize.ShloMosaic.PureOps.Ideal
import Idealize.ShloMosaic.Lib.ValueIdx

noncomputable section

open scoped BigOperators

namespace Cert.GraphSpec

open Idealize.ShloMosaic Idealize.ShloMosaic.ValueIdx

/-- An adjacency matrix: one extended real per pair of nodes. -/
abbrev Adj := (⟨2, ![10000, 10000]⟩ : Shape).Idx → EReal
/-- A feature matrix: 128 extended reals per node. -/
abbrev Feat := (⟨2, ![10000, 128]⟩ : Shape).Idx → EReal
/-- A weight matrix. -/
abbrev Wt := (⟨2, ![128, 128]⟩ : Shape).Idx → EReal

/-- The product of two weight matrices: entry `(a, c)` is `∑ b, w₁ (a, b) · w₂ (b, c)`. -/
def weightProduct (w1 w2 : Wt) : Wt :=
  fun i => ∑ b : Fin 128, w1 (ix2 (i 0) b) * w2 (ix2 b (i 1))

/-- Features times a weight matrix: entry `(j, c)` is `∑ a, x (j, a) · w (a, c)`. -/
def project (x : Feat) (w : Wt) : Feat :=
  fun i => ∑ a : Fin 128, x (ix2 (i 0) a) * w (ix2 a (i 1))

/-- One propagation step along the graph: entry `(r, c)` is `∑ k, adj (r, k) · y (k, c)`. -/
def propagate (adj : Adj) (y : Feat) : Feat :=
  fun i => ∑ k : Fin 10000, adj (ix2 (i 0) k) * y (ix2 k (i 1))

/-- The folded reading `A · (A · (X · (W₁ · W₂)))`. -/
def foldedForm (adj : Adj) (x : Feat) (w1 w2 : Wt) : Feat :=
  propagate adj (propagate adj (project x (weightProduct w1 w2)))

/-- The layer-by-layer reading `A · ((A · (X · W₁)) · W₂)`. -/
def layeredForm (adj : Adj) (x : Feat) (w1 w2 : Wt) : Feat :=
  propagate adj (project (propagate adj (project x w1)) w2)

end Cert.GraphSpec

end
-- ==== Proof.BodyValue.lean ====
/-
  What the kernel's two scratch matrices and its output blocks are, as matrices.

  The first phase computes `S` 2000 rows at a time: point `t < 5` reads rows `2000 t … 2000 t + 1999` of the
  features and both weight matrices whole, so row `r` of `S` is row `r` of `X · (W₁ · W₂)`. The second phase
  computes `T` 200 rows at a time: point `5 + n` (`n < 50`) reads rows `200 n … 200 n + 199` of the adjacency
  matrix, so `T = A · S`. The third phase computes the output the same way from `T`: point `t ≥ 55` reads rows
  `200 (t − 55) …` of the adjacency matrix, and its block is those rows of `A · T`.
-/
import proofs.«164813_g30897994727511_cont_9to1_1020_5_alg».proof.Proof.BodyDataIdeal
import proofs.«164813_g30897994727511_cont_9to1_1020_5_alg».proof.Proof.BodyPayloads
import proofs.«164813_g30897994727511_cont_9to1_1020_5_alg».proof.Proof.GraphSpec

set_option maxRecDepth 16384

noncomputable section

open scoped BigOperators

namespace Cert.KernelIdeal.BodyValue

open Cert.KernelIdeal Cert.KernelIdeal.Gen Cert.KernelIdeal.Body Cert.GraphSpec
open Idealize.ShloMosaic Idealize.ShloMosaic.TcCoe Idealize.ShloMosaic.ValueIdx
open Idealize.SL.Sem

/-! ## The block index of each input window, decided over the grid -/

/-- In the first phase the features' window is at block `t`. -/
theorem idx0 : ∀ t : Fin cfg0.N, t.val < 5 → win0_0.index t (0 : Fin 2) = t.val ∧ win0_0.index t (1 : Fin 2) = 0 :=
  (by decide +kernel : ∀ t : Fin grid0.N, t.val < 5 → win0_0.index t (0 : Fin 2) = t.val ∧ win0_0.index t (1 : Fin 2) = 0)
/-- The two weight windows are the whole matrices at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- In the second phase the adjacency window is at block `t − 5`, -/
theorem idx3_mid : ∀ t : Fin cfg0.N, 5 ≤ t.val → t.val < 55 → win0_3.index t (0 : Fin 2) = t.val - 5 ∧ win0_3.index t (1 : Fin 2) = 0 :=
  (by decide +kernel : ∀ t : Fin grid0.N, 5 ≤ t.val → t.val < 55 → win0_3.index t (0 : Fin 2) = t.val - 5 ∧ win0_3.index t (1 : Fin 2) = 0)
/-- and in the third at block `t − 55`. -/
theorem idx3_hi : ∀ t : Fin cfg0.N, 55 ≤ t.val → win0_3.index t (0 : Fin 2) = t.val - 55 ∧ win0_3.index t (1 : Fin 2) = 0 :=
  (by decide +kernel : ∀ t : Fin grid0.N, 55 ≤ t.val → win0_3.index t (0 : Fin 2) = t.val - 55 ∧ win0_3.index t (1 : Fin 2) = 0)

/-- A grid point is below 105. -/
theorem val_lt (t : Fin cfg0.N) : t.val < 105 := lt_of_lt_of_eq t.isLt N_0

/-! ## The payloads as stages of the specification, over any operands -/

/-- The first payload at row `p` of a block whose row `p` is row `r` of `X`, with the weights whole. -/
theorem pay1_eq_project (X : Feat) (W1 W2 : Wt) (x : Vec Ideal S2000x128 .f32) (w1 w2 : Vec Ideal S128x128 .f32)
    (r : Fin 10000) (p : Fin 2000) (q : Fin 128)
    (hx : ∀ a : Fin 128, x (ix2 p a) = X (ix2 r a)) (h1 : w1 = W1) (h2 : w2 = W2) :
    k0_pay1 (F := Ideal) w1 w2 x (ix2 p q) = project X (weightProduct W1 W2) (ix2 r q) := by
  subst h1 h2
  rw [Payloads.pay1_apply]
  show _ = ∑ a : Fin 128, X (ix2 r a) * ∑ b : Fin 128, w1 (ix2 a b) * w2 (ix2 b q)
  exact Finset.sum_congr rfl fun a _ => by rw [hx a]

/-- The second payload at row `p` of a block whose row `p` is row `r` of `A`. -/
theorem pay2_eq_propagate (A : Adj) (s : Feat) (a : Vec Ideal S200x10000 .f32) (r : Fin 10000) (p : Fin 200) (q : Fin 128)
    (ha : ∀ k : Fin 10000, a (ix2 p k) = A (ix2 r k)) :
    k0_pay2 (F := Ideal) a s (ix2 p q) = propagate A s (ix2 r q) := by
  rw [Payloads.pay2_apply]
  show _ = ∑ k : Fin 10000, A (ix2 r k) * s (ix2 k q)
  exact Finset.sum_congr rfl fun k _ => by rw [ha k]

/-- The third payload, likewise. -/
theorem pay3_eq_propagate (A : Adj) (s : Feat) (a : Vec Ideal S200x10000 .f32) (r : Fin 10000) (p : Fin 200) (q : Fin 128)
    (ha : ∀ k : Fin 10000, a (ix2 p k) = A (ix2 r k)) :
    k0_pay3 (F := Ideal) a s (ix2 p q) = propagate A s (ix2 r q) := by
  rw [Payloads.pay3_apply]
  show _ = ∑ k : Fin 10000, A (ix2 r k) * s (ix2 k q)
  exact Finset.sum_congr rfl fun k _ => by rw [ha k]

variable (m : (ℓ : Loc nD τ sig) → Buf (Elt Ideal) ℓ) (c : Dev nD)

/-! ## The windows' blocks, read in their arrays -/

/-- Row `p` of the features' block at block index `b` is row `2000 b + p` of the features. -/
theorem blk0_apply (t : Fin cfg0.N) (b : ℕ) (hb : win0_0.index t (0 : Fin 2) = b ∧ win0_0.index t (1 : Fin 2) = 0)
    (p : Fin 2000) (a : Fin 128) (r : Fin 10000) (hr : r.val = 2000 * b + p.val) :
    (iblk m c 0 t : Vec Ideal S2000x128 .f32) (ix2 p a) = V m c main_arg1 (ix2 r a) := by
  show V m c main_arg1 (((cfg0.win 0).blk t).view.emb (ix2 p a)) = V m c main_arg1 (ix2 r a)
  refine congrArg (V m c main_arg1) (funext fun d => Fin.ext ?_)
  obtain ⟨e0, e1⟩ := hb
  match d with
  | ⟨0, _⟩ => show win0_0.index t (0 : Fin 2) * 2000 + 1 * p.val = r.val; omega
  | ⟨1, _⟩ => show win0_0.index t (1 : Fin 2) * 128 + 1 * a.val = a.val; omega

/-- The first weight window's block is the first weight matrix. -/
theorem blk1_eq (t : Fin cfg0.N) : (iblk m c 1 t : Vec Ideal S128x128 .f32) = V m c main_arg2 := by
  funext j
  show V m c main_arg2 (((cfg0.win 1).blk t).view.emb j) = V m c main_arg2 j
  refine congrArg (V m c main_arg2) (funext fun d => Fin.ext ?_)
  obtain ⟨e0, e1⟩ := idx1 t
  match d with
  | ⟨0, _⟩ => show win0_1.index t (0 : Fin 2) * 128 + 1 * (j 0).val = (j 0).val; omega
  | ⟨1, _⟩ => show win0_1.index t (1 : Fin 2) * 128 + 1 * (j 1).val = (j 1).val; omega

/-- The second weight window's block is the second weight matrix. -/
theorem blk2_eq (t : Fin cfg0.N) : (iblk m c 2 t : Vec Ideal S128x128 .f32) = V m c main_arg3 := by
  funext j
  show V m c main_arg3 (((cfg0.win 2).blk t).view.emb j) = V m c main_arg3 j
  refine congrArg (V m c main_arg3) (funext fun d => Fin.ext ?_)
  obtain ⟨e0, e1⟩ := idx2 t
  match d with
  | ⟨0, _⟩ => show win0_2.index t (0 : Fin 2) * 128 + 1 * (j 0).val = (j 0).val; omega
  | ⟨1, _⟩ => show win0_2.index t (1 : Fin 2) * 128 + 1 * (j 1).val = (j 1).val; omega

/-- Row `p` of the adjacency block at block index `b` is row `200 b + p` of the adjacency matrix. -/
theorem blk3_apply (t : Fin cfg0.N) (b : ℕ) (hb : win0_3.index t (0 : Fin 2) = b ∧ win0_3.index t (1 : Fin 2) = 0)
    (p : Fin 200) (k : Fin 10000) (r : Fin 10000) (hr : r.val = 200 * b + p.val) :
    (iblk m c 3 t : Vec Ideal S200x10000 .f32) (ix2 p k) = V m c main_arg0 (ix2 r k) := by
  show V m c main_arg0 (((cfg0.win 3).blk t).view.emb (ix2 p k)) = V m c main_arg0 (ix2 r k)
  refine congrArg (V m c main_arg0) (funext fun d => Fin.ext ?_)
  obtain ⟨e0, e1⟩ := hb
  match d with
  | ⟨0, _⟩ => show win0_3.index t (0 : Fin 2) * 200 + 1 * p.val = r.val; omega
  | ⟨1, _⟩ => show win0_3.index t (1 : Fin 2) * 10000 + 1 * k.val = k.val; omega

/-! ## The scratch matrices and the output blocks -/

/-- The first scratch matrix is `X · (W₁ · W₂)`. -/
theorem Sfull_eq : Sfull m c = project (V m c main_arg1) (weightProduct (V m c main_arg2) (V m c main_arg3)) := by
  funext y
  obtain ⟨r, q, rfl⟩ : ∃ (r : Fin 10000) (q : Fin 128), y = ix2 r q := ⟨y 0, y 1, eq_ix2 y⟩
  have hr : r.val < 10000 := r.isLt
  have ht : r.val / 2000 < 105 := by omega
  exact pay1_eq_project (V m c main_arg1) (V m c main_arg2) (V m c main_arg3)
    (iblk m c 0 (pt (r.val / 2000) ht)) (iblk m c 1 (pt (r.val / 2000) ht)) (iblk m c 2 (pt (r.val / 2000) ht))
    r (⟨r.val % 2000, Nat.mod_lt _ (by decide)⟩ : Fin 2000) q
    (fun a => blk0_apply m c (pt (r.val / 2000) ht) (r.val / 2000)
      (idx0 (pt (r.val / 2000) ht) (by show r.val / 2000 < 5; omega)) _ a r
      (by show r.val = 2000 * (r.val / 2000) + r.val % 2000; omega))
    (blk1_eq m c _) (blk2_eq m c _)

/-- The second scratch matrix is `A · S`. -/
theorem Tfull_eq : Tfull m c = propagate (V m c main_arg0) (Sfull m c) := by
  funext y
  obtain ⟨r, q, rfl⟩ : ∃ (r : Fin 10000) (q : Fin 128), y = ix2 r q := ⟨y 0, y 1, eq_ix2 y⟩
  have hr : r.val < 10000 := r.isLt
  have ht : 5 + r.val / 200 < 105 := by omega
  obtain ⟨e0, e1⟩ := idx3_mid (pt (5 + r.val / 200) ht) (by show 5 ≤ 5 + r.val / 200; omega) (by show 5 + r.val / 200 < 55; omega)
  have e0' : win0_3.index (pt (5 + r.val / 200) ht) (0 : Fin 2) = r.val / 200 := by
    rw [e0]; show 5 + r.val / 200 - 5 = r.val / 200; omega
  exact pay2_eq_propagate (V m c main_arg0) (Sfull m c) (iblk m c 3 (pt (5 + r.val / 200) ht))
    r (⟨r.val % 200, Nat.mod_lt _ (by decide)⟩ : Fin 200) q
    (fun k => blk3_apply m c (pt (5 + r.val / 200) ht) (r.val / 200) ⟨e0', e1⟩ _ k r
      (by show r.val = 200 * (r.val / 200) + r.val % 200; omega))

/-- The output block of a point of the third phase is its 200 rows of `A · T`. -/
theorem Oblk_apply (t : Fin cfg0.N) (ht : 55 ≤ t.val) (p : Fin 200) (q : Fin 128) :
    Oblk m c t (ix2 p q) = propagate (V m c main_arg0) (Tfull m c)
      (ix2 (⟨200 * (t.val - 55) + p.val, by have := val_lt t; have := p.isLt; omega⟩ : Fin 10000) q) :=
  pay3_eq_propagate (V m c main_arg0) (Tfull m c) (iblk m c 3 t) _ p q
    (fun k => blk3_apply m c t (t.val - 55) (idx3_hi t ht) p k _ rfl)

end Cert.KernelIdeal.BodyValue

end
-- ==== Proof.KernelFinal.lean ====
/-
  The idealized kernel's result array after the run: every entry of the output is the folded reading
  `A · (A · (X · (W₁ · W₂)))` of the argument arrays.

  The output is written back only in the third phase: point `t ≥ 55` writes rows `[200·(t−55), 200·(t−55) + 200)`.
  Those fifty blocks tile the 10000 rows, and what point `t` writes is the product of its 200 rows of `A` with `T`,
  which is the corresponding block of rows of `A · T`.
-/
import proofs.«164813_g30897994727511_cont_9to1_1020_5_alg».proof.Proof.BodySoundIdeal
import proofs.«164813_g30897994727511_cont_9to1_1020_5_alg».proof.Proof.BodyValue
import Idealize.ShloMosaic.Lib.Pipeline.Value

set_option maxRecDepth 16384

noncomputable section

namespace Cert.KernelIdeal.Final

open Cert.KernelIdeal Cert.KernelIdeal.Gen Cert.KernelIdeal.Body Cert.KernelIdeal.BodyValue Cert.GraphSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The folded reading of the argument arrays as the region finds them. -/
def result (c : Dev nD) : S10000x128.Idx → EReal :=
  foldedForm (V m c main_arg0) (V m c main_arg1) (V m c main_arg2) (V m c main_arg3)

/-- The output is written back exactly at the points of the third phase, -/
theorem flush_ge : ∀ t : Fin cfg0.N, (cfg0.win 4).flush t = true → 55 ≤ t.val :=
  (by decide +kernel : ∀ t : Fin grid0.N, win0_4.flush t = true → 55 ≤ t.val)
theorem flush_of_ge : ∀ t : Fin cfg0.N, 55 ≤ t.val → (cfg0.win 4).flush t = true :=
  (by decide +kernel : ∀ t : Fin grid0.N, 55 ≤ t.val → win0_4.flush t = true)
/-- where its block index is `(t − 55, 0)`. -/
theorem idx4 : ∀ t : Fin cfg0.N, 55 ≤ t.val → win0_4.index t (0 : Fin 2) = t.val - 55 ∧ win0_4.index t (1 : Fin 2) = 0 :=
  (by decide +kernel : ∀ t : Fin grid0.N, 55 ≤ t.val → win0_4.index t (0 : Fin 2) = t.val - 55 ∧ win0_4.index t (1 : Fin 2) = 0)

/-- Row `p` of what point `t` of the third phase computes is row `200·(t−55) + p` of the folded reading. -/
theorem Oblk_eq_result (c : Dev nD) (t : Fin cfg0.N) (ht : 55 ≤ t.val) (p : Fin 200) (q : Fin 128) :
    Oblk m c t (ix2 p q) = result m c (ix2 (⟨200 * (t.val - 55) + p.val, by
      have := t.isLt; have hN : cfg0.N = 105 := N_0; have := p.isLt; omega⟩ : Fin 10000) q) := by
  rw [Oblk_apply m c t ht p q, Tfull_eq, Sfull_eq]
  rfl

/-- What point `t` writes back is block `t` of the folded reading. -/
theorem flushed_eq (c : Dev nD) (t : Fin cfg0.N) (hf : (cfg0.win 4).flush t = true) :
    (dats m 0 c).flushed 4 t = ((cfg0.win 4).blk t).view.read (Elt Ideal) (result m c) := by
  show (cfg0.win 4).cut (grid0.coords t) ((dats m 0 c).after 4 t) = _
  rw [after0_4]
  have ht := flush_ge t hf
  obtain ⟨e0, e1⟩ := idx4 t ht
  funext j
  show Oblk m c t j = result m c (((cfg0.win 4).blk t).view.emb j)
  refine (congrArg (Oblk m c t) (eq_ix2 (n0 := 200) (n1 := 128) j)).trans ?_
  refine (Oblk_eq_result m c t ht (j 0) (j 1)).trans ?_
  refine congrArg (result m c) (funext fun a => Fin.ext ?_)
  match a with
  | ⟨0, _⟩ => show 200 * (t.val - 55) + (j 0).val = win0_4.index t (0 : Fin 2) * 200 + 1 * (j 0).val; omega
  | ⟨1, _⟩ => show (j 1).val = win0_4.index t (1 : Fin 2) * 128 + 1 * (j 1).val; omega

/-- An index of the output is in point `t`'s block iff each coordinate is in the block's range on its axis. -/
theorem mem_blk4 (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0).slice (win0_4.rect t)).set ↔ _
  rw [View.set_slice_whole, Rect.mem_set_unit]
  exact Iff.rfl

/-- Row `r` of the output is written back by point `55 + r / 200`. -/
theorem cover (i : S10000x128.Idx) : ∃ t : Fin cfg0.N, (cfg0.win 4).flush t = true ∧ i ∈ ((cfg0.win 4).blk t).view.set := by
  have hi0 : (i 0).val < 10000 := idx2_lt0 i
  have hi1 : (i 1).val < 128 := idx2_lt1 i
  obtain ⟨t, htv⟩ : ∃ t : Fin cfg0.N, t.val = 55 + (i 0).val / 200 := ⟨pt (55 + (i 0).val / 200) (by omega), rfl⟩
  have ht : 55 ≤ t.val := by omega
  obtain ⟨e0, e1⟩ := idx4 t ht
  refine ⟨t, flush_of_ge t ht, ?_⟩
  rw [mem_blk4]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 128 ≤ (i 1).val ∧ (i 1).val < win0_4.index t (1 : Fin 2) * 128 + 128; omega

/-- The output array after the run is the folded reading. -/
theorem final (c : Dev nD) : (dats m 0 c).arrAt 4 cfg0.N = result m c :=
  (dats m 0 c).arrAt_eq_of_cover 4 (result m c) (fun t hf => flushed_eq m c t hf) cover

/-- The run of the idealized kernel: the result is the folded reading of the arguments, which end unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Final

end
-- ==== Proof.GraphLaw.lean ====
/-
  The folded and the layer-by-layer readings of the two-layer graph auto-encoder agree when every input
  entry is a real number.

  Over the reals both are the same product of five matrices, bracketed differently, and matrix
  multiplication is associative. Over the extended reals multiplication does not distribute over addition
  at the infinities, so the hypothesis that every entry is finite is essential: under it every stage of
  either reading is the image of the corresponding real stage, and the equation is the real one.
-/
import proofs.«164813_g30897994727511_cont_9to1_1020_5_alg».proof.Proof.GraphSpec
import Mathlib

noncomputable section

open scoped BigOperators

namespace Cert.GraphSpec

open Idealize.ShloMosaic Idealize.ShloMosaic.ValueIdx

/-! ## The law over the reals, for any finite index types -/

/-- Associativity of a triple product at one entry: `∑ a, x a · (∑ b, w a b · v b) = ∑ b, (∑ a, x a · w a b) · v b`. -/
theorem sum_mul_sum_assoc {α β : Type*} [Fintype α] [Fintype β] (x : α → ℝ) (w : α → β → ℝ) (v : β → ℝ) :
    ∑ a, x a * ∑ b, w a b * v b = ∑ b, (∑ a, x a * w a b) * v b := by
  simp only [Finset.mul_sum, Finset.sum_mul]
  rw [Finset.sum_comm]
  exact Finset.sum_congr rfl fun b _ => Finset.sum_congr rfl fun a _ => (mul_assoc _ _ _).symm

/-- One row of `A · (X · (W₁ · W₂))` is the same row of `(A · (X · W₁)) · W₂`. -/
theorem row_folded_eq_layered {κ α β : Type*} [Fintype κ] [Fintype α] [Fintype β]
    (adj : κ → ℝ) (x : κ → α → ℝ) (w1 : α → β → ℝ) (w2 : β → ℝ) :
    ∑ k, adj k * ∑ a, x k a * ∑ b, w1 a b * w2 b
      = ∑ b, (∑ k, adj k * ∑ a, x k a * w1 a b) * w2 b := by
  rw [← sum_mul_sum_assoc adj (fun k b => ∑ a, x k a * w1 a b) w2]
  exact Finset.sum_congr rfl fun k _ => congrArg _ (sum_mul_sum_assoc (x k) w1 w2)

/-! ## Sums of products of reals inside the extended reals -/

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, computed in the extended reals, is the real sum. -/
theorem sum_coe_mul_coe {ι : Type*} [Fintype ι] (f g : ι → ℝ) :
    ∑ k, (f k : EReal) * (g k : EReal) = ((∑ k, f k * g k : ℝ) : EReal) := by
  rw [coe_finset_sum]
  exact Finset.sum_congr rfl fun k _ => (EReal.coe_mul _ _).symm

/-! ## The real stages -/

/-- Index sets of the three kinds of matrix. -/
abbrev AdjIdx := (⟨2, ![10000, 10000]⟩ : Shape).Idx
abbrev FeatIdx := (⟨2, ![10000, 128]⟩ : Shape).Idx
abbrev WtIdx := (⟨2, ![128, 128]⟩ : Shape).Idx

/-- The product of two real weight matrices. -/
def weightProductR (w1 w2 : WtIdx → ℝ) : WtIdx → ℝ :=
  fun i => ∑ b : Fin 128, w1 (ix2 (i 0) b) * w2 (ix2 b (i 1))

/-- Real features times a real weight matrix. -/
def projectR (x : FeatIdx → ℝ) (w : WtIdx → ℝ) : FeatIdx → ℝ :=
  fun i => ∑ a : Fin 128, x (ix2 (i 0) a) * w (ix2 a (i 1))

/-- One propagation step over the reals. -/
def propagateR (adj : AdjIdx → ℝ) (y : FeatIdx → ℝ) : FeatIdx → ℝ :=
  fun i => ∑ k : Fin 10000, adj (ix2 (i 0) k) * y (ix2 k (i 1))

theorem weightProduct_coe (w1 w2 : WtIdx → ℝ) :
    weightProduct (fun i => (w1 i : EReal)) (fun i => (w2 i : EReal)) = fun i => ((weightProductR w1 w2 i : ℝ) : EReal) :=
  funext fun _ => sum_coe_mul_coe _ _

theorem project_coe (x : FeatIdx → ℝ) (w : WtIdx → ℝ) :
    project (fun i => (x i : EReal)) (fun i => (w i : EReal)) = fun i => ((projectR x w i : ℝ) : EReal) :=
  funext fun _ => sum_coe_mul_coe _ _

theorem propagate_coe (adj : AdjIdx → ℝ) (y : FeatIdx → ℝ) :
    propagate (fun i => (adj i : EReal)) (fun i => (y i : EReal)) = fun i => ((propagateR adj y i : ℝ) : EReal) :=
  funext fun _ => sum_coe_mul_coe _ _

/-- Over the reals, one row of the inner three stages: `A · (X · (W₁ · W₂)) = (A · (X · W₁)) · W₂`. -/
theorem propagateR_folded (adj : AdjIdx → ℝ) (x : FeatIdx → ℝ) (w1 w2 : WtIdx → ℝ) :
    propagateR adj (projectR x (weightProductR w1 w2)) = projectR (propagateR adj (projectR x w1)) w2 := by
  funext i
  exact row_folded_eq_layered (fun k : Fin 10000 => adj (ix2 (i 0) k)) (fun (k : Fin 10000) (a : Fin 128) => x (ix2 k a))
    (fun (a b : Fin 128) => w1 (ix2 a b)) (fun b : Fin 128 => w2 (ix2 b (i 1)))

/-! ## The law over the extended reals -/

/-- With every input entry a real number, the folded reading `A · (A · (X · (W₁ · W₂)))` equals the
    layer-by-layer reading `A · ((A · (X · W₁)) · W₂)`, entry by entry. -/
theorem folded_eq_layered (adj : Adj) (x : Feat) (w1 w2 : Wt)
    (hadj : ∀ i, ∃ r : ℝ, adj i = (r : EReal)) (hx : ∀ i, ∃ r : ℝ, x i = (r : EReal))
    (hw1 : ∀ i, ∃ r : ℝ, w1 i = (r : EReal)) (hw2 : ∀ i, ∃ r : ℝ, w2 i = (r : EReal)) :
    foldedForm adj x w1 w2 = layeredForm adj x w1 w2 := by
  choose ra hra using hadj
  choose rx hrx using hx
  choose r1 hr1 using hw1
  choose r2 hr2 using hw2
  obtain rfl : adj = fun i => (ra i : EReal) := funext hra
  obtain rfl : x = fun i => (rx i : EReal) := funext hrx
  obtain rfl : w1 = fun i => (r1 i : EReal) := funext hr1
  obtain rfl : w2 = fun i => (r2 i : EReal) := funext hr2
  unfold foldedForm layeredForm
  rw [weightProduct_coe, project_coe, propagate_coe, propagate_coe,
    project_coe, propagate_coe, project_coe, propagate_coe, propagateR_folded]

end Cert.GraphSpec

end
-- ==== Proof.RefLayered.lean ====
/-
  The reference program computes the layer-by-layer reading of the graph auto-encoder.

  The reference is four matrix products in a row: `X · W₁`, then `A ·` that, then that `· W₂`, then `A ·`
  that. Each is read at an index as a finite sum of products whose operands sit at indices given by their
  two coordinates; written with the coordinate constructor of the specification, each product is one stage
  (`project` or `propagate`) of the specification, and the four stages compose to `layeredForm`.
-/
import proofs.«164813_g30897994727511_cont_9to1_1020_5_alg».proof.Proof.Gen.ReferenceIdeal.Read
import proofs.«164813_g30897994727511_cont_9to1_1020_5_alg».proof.Proof.GraphSpec

noncomputable section

open scoped BigOperators

namespace Cert.RefLayered

open Idealize.ShloMosaic Idealize.ShloMosaic.ValueIdx Cert.GraphSpec

/-! ## The operand indices of each product, by coordinates -/

theorem lidx_v0 (i : Cert.ReferenceIdeal.S10000x128.Idx) (k : Fin 128) :
    Cert.ReferenceIdeal.Read.lidx_main_v0 i k = ix2 (i 0) k :=
  funext fun a => Fin.ext (by match a with | ⟨0, _⟩ => rfl | ⟨1, _⟩ => rfl)

theorem ridx_v0 (i : Cert.ReferenceIdeal.S10000x128.Idx) (k : Fin 128) :
    Cert.ReferenceIdeal.Read.ridx_main_v0 i k = ix2 k (i 1) :=
  funext fun a => Fin.ext (by match a with | ⟨0, _⟩ => rfl | ⟨1, _⟩ => rfl)

theorem lidx_v1 (i : Cert.ReferenceIdeal.S10000x128.Idx) (k : Fin 10000) :
    Cert.ReferenceIdeal.Read.lidx_main_v1 i k = ix2 (i 0) k :=
  funext fun a => Fin.ext (by match a with | ⟨0, _⟩ => rfl | ⟨1, _⟩ => rfl)

theorem ridx_v1 (i : Cert.ReferenceIdeal.S10000x128.Idx) (k : Fin 10000) :
    Cert.ReferenceIdeal.Read.ridx_main_v1 i k = ix2 k (i 1) :=
  funext fun a => Fin.ext (by match a with | ⟨0, _⟩ => rfl | ⟨1, _⟩ => rfl)

theorem lidx_v2 (i : Cert.ReferenceIdeal.S10000x128.Idx) (k : Fin 128) :
    Cert.ReferenceIdeal.Read.lidx_main_v2 i k = ix2 (i 0) k :=
  funext fun a => Fin.ext (by match a with | ⟨0, _⟩ => rfl | ⟨1, _⟩ => rfl)

theorem ridx_v2 (i : Cert.ReferenceIdeal.S10000x128.Idx) (k : Fin 128) :
    Cert.ReferenceIdeal.Read.ridx_main_v2 i k = ix2 k (i 1) :=
  funext fun a => Fin.ext (by match a with | ⟨0, _⟩ => rfl | ⟨1, _⟩ => rfl)

theorem lidx_v3 (i : Cert.ReferenceIdeal.S10000x128.Idx) (k : Fin 10000) :
    Cert.ReferenceIdeal.Read.lidx_main_v3 i k = ix2 (i 0) k :=
  funext fun a => Fin.ext (by match a with | ⟨0, _⟩ => rfl | ⟨1, _⟩ => rfl)

theorem ridx_v3 (i : Cert.ReferenceIdeal.S10000x128.Idx) (k : Fin 10000) :
    Cert.ReferenceIdeal.Read.ridx_main_v3 i k = ix2 k (i 1) :=
  funext fun a => Fin.ext (by match a with | ⟨0, _⟩ => rfl | ⟨1, _⟩ => rfl)

/-! ## The four products, one stage each -/

/-- The first product is `X · W₁`. -/
theorem stage0 (x1 : (⟨Cert.ReferenceIdeal.S10000x128, .f32⟩ : BufTy).Contents (Elt Ideal))
    (x2 : (⟨Cert.ReferenceIdeal.S128x128, .f32⟩ : BufTy).Contents (Elt Ideal)) :
    Cert.ReferenceIdeal.Read.val_main_v0 (F := Ideal) x1 x2 = project x1 x2 := by
  funext i
  rw [Cert.ReferenceIdeal.Read.val_main_v0_apply]
  show _ = ∑ a : Fin 128, x1 (ix2 (i 0) a) * x2 (ix2 a (i 1))
  exact Finset.sum_congr rfl fun k _ => by rw [lidx_v0, ridx_v0]; rfl

/-- The second product is `A ·` the first. -/
theorem stage1 (x0 : (⟨Cert.ReferenceIdeal.S10000x10000, .f32⟩ : BufTy).Contents (Elt Ideal))
    (x1 : (⟨Cert.ReferenceIdeal.S10000x128, .f32⟩ : BufTy).Contents (Elt Ideal))
    (x2 : (⟨Cert.ReferenceIdeal.S128x128, .f32⟩ : BufTy).Contents (Elt Ideal)) :
    Cert.ReferenceIdeal.Read.val_main_v1 (F := Ideal) x0 x1 x2
      = propagate x0 (Cert.ReferenceIdeal.Read.val_main_v0 (F := Ideal) x1 x2) := by
  funext i
  rw [Cert.ReferenceIdeal.Read.val_main_v1_apply]
  show _ = ∑ k : Fin 10000, x0 (ix2 (i 0) k) * Cert.ReferenceIdeal.Read.val_main_v0 (F := Ideal) x1 x2 (ix2 k (i 1))
  exact Finset.sum_congr rfl fun k _ => by rw [lidx_v1, ridx_v1]; rfl

/-- The third product is the second `· W₂`. -/
theorem stage2 (x0 : (⟨Cert.ReferenceIdeal.S10000x10000, .f32⟩ : BufTy).Contents (Elt Ideal))
    (x1 : (⟨Cert.ReferenceIdeal.S10000x128, .f32⟩ : BufTy).Contents (Elt Ideal))
    (x2 x3 : (⟨Cert.ReferenceIdeal.S128x128, .f32⟩ : BufTy).Contents (Elt Ideal)) :
    Cert.ReferenceIdeal.Read.val_main_v2 (F := Ideal) x0 x1 x2 x3
      = project (Cert.ReferenceIdeal.Read.val_main_v1 (F := Ideal) x0 x1 x2) x3 := by
  funext i
  rw [Cert.ReferenceIdeal.Read.val_main_v2_apply]
  show _ = ∑ a : Fin 128, Cert.ReferenceIdeal.Read.val_main_v1 (F := Ideal) x0 x1 x2 (ix2 (i 0) a) * x3 (ix2 a (i 1))
  exact Finset.sum_congr rfl fun k _ => by rw [lidx_v2, ridx_v2]; rfl

/-- The fourth product is `A ·` the third. -/
theorem stage3 (x0 : (⟨Cert.ReferenceIdeal.S10000x10000, .f32⟩ : BufTy).Contents (Elt Ideal))
    (x1 : (⟨Cert.ReferenceIdeal.S10000x128, .f32⟩ : BufTy).Contents (Elt Ideal))
    (x2 x3 : (⟨Cert.ReferenceIdeal.S128x128, .f32⟩ : BufTy).Contents (Elt Ideal)) :
    Cert.ReferenceIdeal.Read.val_main_v3 (F := Ideal) x0 x1 x2 x3
      = propagate x0 (Cert.ReferenceIdeal.Read.val_main_v2 (F := Ideal) x0 x1 x2 x3) := by
  funext i
  rw [Cert.ReferenceIdeal.Read.val_main_v3_apply]
  show _ = ∑ k : Fin 10000, x0 (ix2 (i 0) k) * Cert.ReferenceIdeal.Read.val_main_v2 (F := Ideal) x0 x1 x2 x3 (ix2 k (i 1))
  exact Finset.sum_congr rfl fun k _ => by rw [lidx_v3, ridx_v3]; rfl

/-! ## The reference is the layer-by-layer reading -/

/-- The value the reference program writes is `A · ((A · (X · W₁)) · W₂)`, entry by entry. -/
theorem ref_is_layered (x0 : (⟨Cert.ReferenceIdeal.S10000x10000, .f32⟩ : BufTy).Contents (Elt Ideal))
    (x1 : (⟨Cert.ReferenceIdeal.S10000x128, .f32⟩ : BufTy).Contents (Elt Ideal))
    (x2 x3 : (⟨Cert.ReferenceIdeal.S128x128, .f32⟩ : BufTy).Contents (Elt Ideal)) :
    Cert.ReferenceIdeal.Read.val_main_v3 (F := Ideal) x0 x1 x2 x3 = Cert.GraphSpec.layeredForm x0 x1 x2 x3 := by
  rw [stage3, stage2, stage1, stage0]
  rfl

end Cert.RefLayered

end
-- ==== Proof.FiniteInputs.lean ====
/-
  From the precondition to "every input entry is a real number".

  The precondition computes, for each of the four input arrays, whether every entry `x` satisfies
  `|x| < +∞`, and takes the conjunction of the four answers. Read at the extended reals, `|x|` is
  `max x (-x)`, which is `+∞` at both infinities, so the strict inequality leaves exactly the real numbers.
-/
import proofs.«164813_g30897994727511_cont_9to1_1020_5_alg».proof.Defs
import Idealize.ShloMosaic.Lib.ReduceAll
import Idealize.ShloMosaic.Lib.ValueIdx

noncomputable section

namespace Cert.FiniteInputs

open Idealize.ShloMosaic

/-- The rank-0 shape has one index. -/
instance : Subsingleton Cert.Pre_finite_inputs.S_.Idx := ⟨fun _ _ => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares strictly below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of each of the four inputs is a real number. -/
theorem real_of_pre [hP : Cert.Pre_finite_inputs.Facts]
    (a0 : (⟨Cert.Pre_finite_inputs.S10000x10000, .f32⟩ : BufTy).Contents (Elt Ideal))
    (a1 : (⟨Cert.Pre_finite_inputs.S10000x128, .f32⟩ : BufTy).Contents (Elt Ideal))
    (a2 a3 : (⟨Cert.Pre_finite_inputs.S128x128, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_inf (a0 i) (Host.reduce_andi_all _ _ _ _ _ e0 i),
    fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i)⟩

end Cert.FiniteInputs

end
-- ==== Proof.lean ====
/-
  A graph auto-encoder with two linear layers, `A · ((A · (X · W₁)) · W₂)`, computed by one kernel in three
  phases over a grid of 105 points — `S = X · (W₁ · W₂)` (points 0–4), `T = A · S` (points 5–54) and the
  output `A · T` (points 55–104), `S` and `T` kept in two scratch buffers between points — against the
  layer-by-layer reference.

  The frames: at every point the body runs in the point's phase; the region invariant carries the rows of `S` and
  `T` written so far. The values: over the extended reals the kernel's output is the folded reading
  `A · (A · (X · (W₁ · W₂)))` and the reference's the layered one; for finite inputs every entry of every stage is
  a real number, and the two readings agree by associativity of the matrix product (a finite double sum
  re-ordered, products distributed over sums), which is where finiteness is needed.
-/
import proofs.«164813_g30897994727511_cont_9to1_1020_5_alg».proof.Defs
import proofs.«164813_g30897994727511_cont_9to1_1020_5_alg».proof.Proof.Gen.Kernel
import proofs.«164813_g30897994727511_cont_9to1_1020_5_alg».proof.Proof.Gen.KernelIdeal
import proofs.«164813_g30897994727511_cont_9to1_1020_5_alg».proof.Proof.Gen.ReferenceIdeal
import proofs.«164813_g30897994727511_cont_9to1_1020_5_alg».proof.Proof.Gen.Pre_finite_inputs
import proofs.«164813_g30897994727511_cont_9to1_1020_5_alg».proof.Proof.Gen.ReferenceIdeal.Run
import proofs.«164813_g30897994727511_cont_9to1_1020_5_alg».proof.Proof.Gen.ReferenceIdeal.Read
import proofs.«164813_g30897994727511_cont_9to1_1020_5_alg».proof.Proof.BodySoundBits
import proofs.«164813_g30897994727511_cont_9to1_1020_5_alg».proof.Proof.KernelFinal
import proofs.«164813_g30897994727511_cont_9to1_1020_5_alg».proof.Proof.GraphLaw
import proofs.«164813_g30897994727511_cont_9to1_1020_5_alg».proof.Proof.RefLayered
import proofs.«164813_g30897994727511_cont_9to1_1020_5_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference is four host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result is the folded reading, the reference's the layered one, of arguments that agree and are
    finite: equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v3_eq, Cert.RefLayered.ref_is_layered]
  obtain ⟨h0, h1, h2, h3⟩ := Cert.FiniteInputs.real_of_pre _ _ _ _ (hpre c)
  exact (Cert.GraphSpec.folded_eq_layered _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
